-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024x8 : Shape := ⟨3, ![8192, 1024, 8]⟩
abbrev S8192x1024 : Shape := ⟨2, ![8192, 1024]⟩
abbrev S1024x1024 : Shape := ⟨2, ![1024, 1024]⟩
abbrev S_ : Shape := ⟨0, ![]⟩

class Facts : Prop where
  bcast_S_S8192x1024x8 : S_.BroadcastsInDim S8192x1024x8 (![] : Fin 0 → Fin S8192x1024x8.rank)
  reducesTo_S8192x1024x8_S_d0_1_2 : S8192x1024x8.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8192x1024x8 .f32) (main_arg1 : FVec F S8192x1024 .f32) (main_arg2 : FVec F S8192x1024 .f32) (main_arg3 : FVec F S1024x1024 .f32) (main_arg4 : IVec S1024x1024 32) : IVec S_ 1 :=
  let main_v0 : FVec F S8192x1024x8 .f32 := Host.absf main_arg0
  let main_cst : FVec F S_ .f32 := constant S_ .f32 0x7F800000#32
  let main_v1 : FVec F S8192x1024x8 .f32 := broadcastInDim S8192x1024x8 ![] bcast_S_S8192x1024x8 main_cst
  let main_v2 : IVec S8192x1024x8 1 := cmpf .olt main_v0 main_v1
  let main_c : IVec S_ 1 := constantI S_ 1 1#1
  let main_v3 : IVec S_ 1 := (fun x v => Host.reduce IntOp.andi x v reducesTo_S8192x1024x8_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8192x1024x8 : Shape := ⟨3, ![8192, 1024, 8]⟩
abbrev S8192x1024 : Shape := ⟨2, ![8192, 1024]⟩
abbrev S1024x1024 : Shape := ⟨2, ![1024, 1024]⟩
abbrev S8x8192x1024 : Shape := ⟨3, ![8, 8192, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 12
  | .vmem => 9
  | .smem => 0
  | _ => 0

abbrev bufTy : (tb : Table) → Fin (tcTables nBuf tb) → BufTy
  | .hbm, ⟨0, _⟩ => ⟨S8192x1024x8, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .i32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S8x8192x1024, .f32⟩
  | .hbm, ⟨10, _⟩ => ⟨S8x8192x1024, .f32⟩
  | .hbm, ⟨11, _⟩ => ⟨S8192x1024x8, .f32⟩
  | .local _ .vmem, ⟨0, _⟩ => ⟨S8x128x1024, .f32⟩
  | .local _ .vmem, ⟨1, _⟩ => ⟨S8x128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x1024, .bf16⟩
  | .local _ .vmem, ⟨7, _⟩ => ⟨S8x128x1024, .f32⟩
  | .local _ .vmem, ⟨8, _⟩ => ⟨S8x128x1024, .f32⟩
  | _, _ => ⟨S8192x1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S1024x1024_S1024x1024_1_0 : S1024x1024.Transposes [1, 0] S1024x1024
  bitsLt_bf16_f32 : FTy.bits .bf16 < FTy.bits .f32
  transposes_S8192x1024x8_S8x8192x1024_2_0_1 : S8192x1024x8.Transposes [2, 0, 1] S8x8192x1024
  inb_S128x1024_S128x1024_0_0 : ∀ a, (![0, 0] : Fin 2 → Nat) a + S128x1024.size a ≤ S128x1024.size a
  h_S128x1024 : 0 < S128x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S8x128x1024_S1x128x1024_0_0_0 : ∀ a, (![0, 0, 0] : Fin 3 → Nat) a + S1x128x1024.size a ≤ S8x128x1024.size a
  h_S1x128x1024 : 0 < S1x128x1024.numel
  shapeCasts_S1x128x1024_S128x1024 : S1x128x1024.ShapeCasts S128x1024
  inb_S8x128x1024_S1x128x1024_1_0_0 : ∀ a, (![1, 0, 0] : Fin 3 → Nat) a + S1x128x1024.size a ≤ S8x128x1024.size a
  inb_S8x128x1024_S1x128x1024_2_0_0 : ∀ a, (![2, 0, 0] : Fin 3 → Nat) a + S1x128x1024.size a ≤ S8x128x1024.size a
  inb_S8x128x1024_S1x128x1024_3_0_0 : ∀ a, (![3, 0, 0] : Fin 3 → Nat) a + S1x128x1024.size a ≤ S8x128x1024.size a
  inb_S8x128x1024_S1x128x1024_4_0_0 : ∀ a, (![4, 0, 0] : Fin 3 → Nat) a + S1x128x1024.size a ≤ S8x128x1024.size a
  inb_S8x128x1024_S1x128x1024_5_0_0 : ∀ a, (![5, 0, 0] : Fin 3 → Nat) a + S1x128x1024.size a ≤ S8x128x1024.size a
  inb_S8x128x1024_S1x128x1024_6_0_0 : ∀ a, (![6, 0, 0] : Fin 3 → Nat) a + S1x128x1024.size a ≤ S8x128x1024.size a
  inb_S8x128x1024_S1x128x1024_7_0_0 : ∀ a, (![7, 0, 0] : Fin 3 → Nat) a + S1x128x1024.size a ≤ S8x128x1024.size a
  shapeCasts_S128x1024_S1x128x1024 : S128x1024.ShapeCasts S1x128x1024
  concatenates_S1x128x1024_S1x128x1024_S1x128x1024_S1x128x1024_S1x128x1024_S1x128x1024_S1x128x1024_S1x128x1024_S8x128x1024_d0 : Shape.Concatenates [S1x128x1024, S1x128x1024, S1x128x1024, S1x128x1024, S1x128x1024, S1x128x1024, S1x128x1024, S1x128x1024] S8x128x1024 0
  inb_S8x128x1024_S8x128x1024_0_0_0 : ∀ a, (![0, 0, 0] : Fin 3 → Nat) a + S8x128x1024.size a ≤ S8x128x1024.size a
  h_S8x128x1024 : 0 < S8x128x1024.numel
  transposes_S8x8192x1024_S8192x1024x8_1_2_0 : S8x8192x1024.Transposes [1, 2, 0] S8192x1024x8
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S8x8192x1024.size a
  hwx0_0 : ∀ i : grid0.Coords, EltTy.bits .f32 = 32 ∨ (Rect.block (s := S8x8192x1024) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128x1024.size a ≤ S8x8192x1024.size a
  hwx0_4 : ∀ i : grid0.Coords, EltTy.bits .f32 = 32 ∨ (Rect.block (s := S8x8192x1024) S8x128x1024.size (cc0_transform_4 i) (hinb0_4 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_v4) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S8x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024x8 : Shape := ⟨3, ![8192, 1024, 8]⟩
abbrev S8192x1024 : Shape := ⟨2, ![8192, 1024]⟩
abbrev S1024x1024 : Shape := ⟨2, ![1024, 1024]⟩
abbrev S_ : Shape := ⟨0, ![]⟩
abbrev S8192x1024x1 : Shape := ⟨3, ![8192, 1024, 1]⟩

abbrev nBuf : Space → Nat
  | .hbm => 354
  | .vmem => 0
  | .smem => 0
  | _ => 0

abbrev hbmTy0_0 (i : Nat) : BufTy := match i % 128 with
  | 0 => ⟨S8192x1024x8, .f32⟩
  | 1 => ⟨S8192x1024, .f32⟩
  | 2 => ⟨S8192x1024, .f32⟩
  | 3 => ⟨S1024x1024, .f32⟩
  | 4 => ⟨S1024x1024, .i32⟩
  | 5 => ⟨S1024x1024, .f32⟩
  | 6 => ⟨S1024x1024, .f32⟩
  | 7 => ⟨S8192x1024, .f32⟩
  | 8 => ⟨S_, .f32⟩
  | 9 => ⟨S8192x1024, .f32⟩
  | 10 => ⟨S8192x1024, .f32⟩
  | 11 => ⟨S8192x1024, .f32⟩
  | 12 => ⟨S8192x1024x1, .f32⟩
  | 13 => ⟨S8192x1024, .f32⟩
  | 14 => ⟨S8192x1024x1, .f32⟩
  | 15 => ⟨S8192x1024, .f32⟩
  | 16 => ⟨S8192x1024x1, .f32⟩
  | 17 => ⟨S8192x1024, .f32⟩
  | 18 => ⟨S8192x1024x1, .f32⟩
  | 19 => ⟨S8192x1024, .f32⟩
  | 20 => ⟨S8192x1024x1, .f32⟩
  | 21 => ⟨S8192x1024, .f32⟩
  | 22 => ⟨S8192x1024x1, .f32⟩
  | 23 => ⟨S8192x1024, .f32⟩
  | 24 => ⟨S8192x1024x1, .f32⟩
  | 25 => ⟨S8192x1024, .f32⟩
  | 26 => ⟨S8192x1024x1, .f32⟩
  | 27 => ⟨S8192x1024, .f32⟩
  | 28 => ⟨S_, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S8192x1024, .f32⟩
  | 45 => ⟨S_, .f32⟩
  | 46 => ⟨S8192x1024, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S8192x1024, .f32⟩
  | 59 => ⟨S_, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S8192x1024, .f32⟩
  | 74 => ⟨S_, .f32⟩
  | 75 => ⟨S8192x1024, .f32⟩
  | 76 => ⟨S8192x1024, .f32⟩
  | 77 => ⟨S_, .f32⟩
  | 78 => ⟨S8192x1024, .f32⟩
  | 79 => ⟨S8192x1024, .f32⟩
  | 80 => ⟨S8192x1024, .f32⟩
  | 81 => ⟨S8192x1024, .f32⟩
  | 82 => ⟨S_, .f32⟩
  | 83 => ⟨S8192x1024, .f32⟩
  | 84 => ⟨S8192x1024, .f32⟩
  | 85 => ⟨S_, .f32⟩
  | 86 => ⟨S8192x1024, .f32⟩
  | 87 => ⟨S8192x1024, .f32⟩
  | 88 => ⟨S_, .f32⟩
  | 89 => ⟨S8192x1024, .f32⟩
  | 90 => ⟨S8192x1024, .f32⟩
  | 91 => ⟨S8192x1024, .f32⟩
  | 92 => ⟨S_, .f32⟩
  | 93 => ⟨S8192x1024, .f32⟩
  | 94 => ⟨S8192x1024, .f32⟩
  | 95 => ⟨S_, .f32⟩
  | 96 => ⟨S8192x1024, .f32⟩
  | 97 => ⟨S8192x1024, .f32⟩
  | 98 => ⟨S8192x1024, .f32⟩
  | 99 => ⟨S_, .f32⟩
  | 100 => ⟨S8192x1024, .f32⟩
  | 101 => ⟨S8192x1024, .f32⟩
  | 102 => ⟨S_, .f32⟩
  | 103 => ⟨S8192x1024, .f32⟩
  | 104 => ⟨S8192x1024, .f32⟩
  | 105 => ⟨S8192x1024, .f32⟩
  | 106 => ⟨S_, .f32⟩
  | 107 => ⟨S8192x1024, .f32⟩
  | 108 => ⟨S8192x1024, .f32⟩
  | 109 => ⟨S_, .f32⟩
  | 110 => ⟨S8192x1024, .f32⟩
  | 111 => ⟨S8192x1024, .f32⟩
  | 112 => ⟨S_, .f32⟩
  | 113 => ⟨S8192x1024, .f32⟩
  | 114 => ⟨S8192x1024, .f32⟩
  | 115 => ⟨S8192x1024, .f32⟩
  | 116 => ⟨S_, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S8192x1024, .f32⟩
  | 124 => ⟨S_, .f32⟩
  | 125 => ⟨S8192x1024, .f32⟩
  | 126 => ⟨S8192x1024, .f32⟩
  | 127 => ⟨S8192x1024, .f32⟩
  | _ => ⟨S8192x1024x8, .f32⟩

abbrev hbmTy0_1 (i : Nat) : BufTy := match i % 128 with
  | 0 => ⟨S8192x1024, .f32⟩
  | 1 => ⟨S_, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S_, .f32⟩
  | 9 => ⟨S8192x1024, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S8192x1024, .f32⟩
  | 22 => ⟨S_, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S8192x1024, .f32⟩
  | 44 => ⟨S8192x1024, .f32⟩
  | 45 => ⟨S_, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S8192x1024, .f32⟩
  | 56 => ⟨S_, .f32⟩
  | 57 => ⟨S8192x1024, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S8192x1024, .f32⟩
  | 72 => ⟨S_, .f32⟩
  | 73 => ⟨S8192x1024, .f32⟩
  | 74 => ⟨S8192x1024, .f32⟩
  | 75 => ⟨S8192x1024, .f32⟩
  | 76 => ⟨S8192x1024, .f32⟩
  | 77 => ⟨S_, .f32⟩
  | 78 => ⟨S8192x1024, .f32⟩
  | 79 => ⟨S8192x1024, .f32⟩
  | 80 => ⟨S_, .f32⟩
  | 81 => ⟨S8192x1024, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S_, .f32⟩
  | 88 => ⟨S8192x1024, .f32⟩
  | 89 => ⟨S8192x1024, .f32⟩
  | 90 => ⟨S_, .f32⟩
  | 91 => ⟨S8192x1024, .f32⟩
  | 92 => ⟨S8192x1024, .f32⟩
  | 93 => ⟨S8192x1024, .f32⟩
  | 94 => ⟨S_, .f32⟩
  | 95 => ⟨S8192x1024, .f32⟩
  | 96 => ⟨S8192x1024, .f32⟩
  | 97 => ⟨S_, .f32⟩
  | 98 => ⟨S8192x1024, .f32⟩
  | 99 => ⟨S8192x1024, .f32⟩
  | 100 => ⟨S_, .f32⟩
  | 101 => ⟨S8192x1024, .f32⟩
  | 102 => ⟨S8192x1024, .f32⟩
  | 103 => ⟨S8192x1024, .f32⟩
  | 104 => ⟨S_, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S_, .f32⟩
  | 111 => ⟨S8192x1024, .f32⟩
  | 112 => ⟨S8192x1024, .f32⟩
  | 113 => ⟨S_, .f32⟩
  | 114 => ⟨S8192x1024, .f32⟩
  | 115 => ⟨S8192x1024, .f32⟩
  | 116 => ⟨S_, .f32⟩
  | 117 => ⟨S8192x1024, .f32⟩
  | 118 => ⟨S8192x1024, .i1⟩
  | 119 => ⟨S_, .f32⟩
  | 120 => ⟨S8192x1024, .f32⟩
  | 121 => ⟨S8192x1024, .f32⟩
  | 122 => ⟨S_, .f32⟩
  | 123 => ⟨S8192x1024, .f32⟩
  | 124 => ⟨S8192x1024, .f32⟩
  | 125 => ⟨S8192x1024, .f32⟩
  | 126 => ⟨S8192x1024, .f32⟩
  | 127 => ⟨S_, .f32⟩
  | _ => ⟨S8192x1024x8, .f32⟩

abbrev hbmTy0_2 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S8192x1024, .f32⟩
  | 5 => ⟨S8192x1024, .f32⟩
  | 6 => ⟨S8192x1024, .f32⟩
  | 7 => ⟨S_, .f32⟩
  | 8 => ⟨S8192x1024, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S_, .f32⟩
  | 19 => ⟨S8192x1024, .f32⟩
  | 20 => ⟨S8192x1024, .i1⟩
  | 21 => ⟨S8192x1024, .f32⟩
  | 22 => ⟨S_, .f32⟩
  | 23 => ⟨S8192x1024, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S_, .f32⟩
  | 33 => ⟨S8192x1024, .f32⟩
  | 34 => ⟨S8192x1024, .f32⟩
  | 35 => ⟨S_, .f32⟩
  | 36 => ⟨S8192x1024, .f32⟩
  | 37 => ⟨S8192x1024, .i1⟩
  | 38 => ⟨S_, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S8192x1024, .f32⟩
  | 45 => ⟨S8192x1024, .f32⟩
  | 46 => ⟨S_, .f32⟩
  | 47 => ⟨S8192x1024, .f32⟩
  | 48 => ⟨S8192x1024, .f32⟩
  | 49 => ⟨S8192x1024, .f32⟩
  | 50 => ⟨S_, .f32⟩
  | 51 => ⟨S8192x1024, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S8192x1024, .f32⟩
  | 58 => ⟨S8192x1024, .f32⟩
  | 59 => ⟨S_, .f32⟩
  | 60 => ⟨S_, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S8192x1024, .f32⟩
  | 75 => ⟨S_, .f32⟩
  | 76 => ⟨S8192x1024, .f32⟩
  | 77 => ⟨S8192x1024, .f32⟩
  | 78 => ⟨S8192x1024, .f32⟩
  | 79 => ⟨S_, .f32⟩
  | 80 => ⟨S8192x1024, .f32⟩
  | 81 => ⟨S8192x1024, .f32⟩
  | 82 => ⟨S_, .f32⟩
  | 83 => ⟨S8192x1024, .f32⟩
  | 84 => ⟨S8192x1024, .f32⟩
  | 85 => ⟨S_, .f32⟩
  | 86 => ⟨S8192x1024, .f32⟩
  | 87 => ⟨S8192x1024, .f32⟩
  | 88 => ⟨S8192x1024, .f32⟩
  | 89 => ⟨S8192x1024x1, .f32⟩
  | 90 => ⟨S8192x1024x1, .f32⟩
  | 91 => ⟨S8192x1024x1, .f32⟩
  | 92 => ⟨S8192x1024x1, .f32⟩
  | 93 => ⟨S8192x1024x1, .f32⟩
  | 94 => ⟨S8192x1024x1, .f32⟩
  | 95 => ⟨S8192x1024x1, .f32⟩
  | 96 => ⟨S8192x1024x1, .f32⟩
  | 97 => ⟨S8192x1024x8, .f32⟩
  | _ => ⟨S8192x1024x8, .f32⟩

abbrev hbmTy (i : Nat) : BufTy := match i / 128 with
  | 0 => hbmTy0_0 i
  | 1 => hbmTy0_1 i
  | 2 => hbmTy0_2 i
  | _ => ⟨S8192x1024x8, .f32⟩

abbrev bufTy : (tb : Table) → Fin (tcTables nBuf tb) → BufTy
  | .hbm, ⟨i, _⟩ => hbmTy i
  | _, _ => ⟨S8192x1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_14 : Ref sig .tc := ⟨.hbm, 82, rfl⟩
abbrev main_v62 : Ref sig .tc := ⟨.hbm, 83, rfl⟩
abbrev main_v63 : Ref sig .tc := ⟨.hbm, 84, rfl⟩
abbrev main_cst_15 : Ref sig .tc := ⟨.hbm, 85, rfl⟩
abbrev main_v64 : Ref sig .tc := ⟨.hbm, 86, rfl⟩
abbrev main_v65 : Ref sig .tc := ⟨.hbm, 87, rfl⟩
abbrev main_cst_16 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_17 : Ref sig .tc := ⟨.hbm, 92, rfl⟩
abbrev main_v69 : Ref sig .tc := ⟨.hbm, 93, rfl⟩
abbrev main_v70 : Ref sig .tc := ⟨.hbm, 94, rfl⟩
abbrev main_cst_18 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_19 : Ref sig .tc := ⟨.hbm, 99, rfl⟩
abbrev main_v74 : Ref sig .tc := ⟨.hbm, 100, rfl⟩
abbrev main_v75 : Ref sig .tc := ⟨.hbm, 101, rfl⟩
abbrev main_cst_20 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_21 : Ref sig .tc := ⟨.hbm, 106, rfl⟩
abbrev main_v79 : Ref sig .tc := ⟨.hbm, 107, rfl⟩
abbrev main_v80 : Ref sig .tc := ⟨.hbm, 108, rfl⟩
abbrev main_cst_22 : Ref sig .tc := ⟨.hbm, 109, rfl⟩
abbrev main_v81 : Ref sig .tc := ⟨.hbm, 110, rfl⟩
abbrev main_v82 : Ref sig .tc := ⟨.hbm, 111, rfl⟩
abbrev main_cst_23 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_24 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_25 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_26 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_27 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_28 : Ref sig .tc := ⟨.hbm, 140, rfl⟩
abbrev main_v106 : Ref sig .tc := ⟨.hbm, 141, rfl⟩
abbrev main_v107 : Ref sig .tc := ⟨.hbm, 142, rfl⟩
abbrev main_cst_29 : Ref sig .tc := ⟨.hbm, 143, rfl⟩
abbrev main_v108 : Ref sig .tc := ⟨.hbm, 144, rfl⟩
abbrev main_v109 : Ref sig .tc := ⟨.hbm, 145, rfl⟩
abbrev main_cst_30 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_31 : Ref sig .tc := ⟨.hbm, 150, rfl⟩
abbrev main_v113 : Ref sig .tc := ⟨.hbm, 151, rfl⟩
abbrev main_v114 : Ref sig .tc := ⟨.hbm, 152, rfl⟩
abbrev main_cst_32 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_33 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_34 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_35 : Ref sig .tc := ⟨.hbm, 165, rfl⟩
abbrev main_v124 : Ref sig .tc := ⟨.hbm, 166, rfl⟩
abbrev main_v125 : Ref sig .tc := ⟨.hbm, 167, rfl⟩
abbrev main_cst_36 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_cst_37 : Ref sig .tc := ⟨.hbm, 173, rfl⟩
abbrev main_v130 : Ref sig .tc := ⟨.hbm, 174, rfl⟩
abbrev main_v131 : Ref sig .tc := ⟨.hbm, 175, rfl⟩
abbrev main_cst_38 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_39 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_40 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_41 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_42 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_43 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_cst_44 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_cst_45 : Ref sig .tc := ⟨.hbm, 205, rfl⟩
abbrev main_v154 : Ref sig .tc := ⟨.hbm, 206, rfl⟩
abbrev main_v155 : Ref sig .tc := ⟨.hbm, 207, rfl⟩
abbrev main_cst_46 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_cst_47 : Ref sig .tc := ⟨.hbm, 212, rfl⟩
abbrev main_v159 : Ref sig .tc := ⟨.hbm, 213, rfl⟩
abbrev main_v160 : Ref sig .tc := ⟨.hbm, 214, rfl⟩
abbrev main_cst_48 : Ref sig .tc := ⟨.hbm, 215, rfl⟩
abbrev main_v161 : Ref sig .tc := ⟨.hbm, 216, rfl⟩
abbrev main_v162 : Ref sig .tc := ⟨.hbm, 217, rfl⟩
abbrev main_cst_49 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_cst_50 : Ref sig .tc := ⟨.hbm, 222, rfl⟩
abbrev main_v166 : Ref sig .tc := ⟨.hbm, 223, rfl⟩
abbrev main_v167 : Ref sig .tc := ⟨.hbm, 224, rfl⟩
abbrev main_cst_51 : Ref sig .tc := ⟨.hbm, 225, rfl⟩
abbrev main_v168 : Ref sig .tc := ⟨.hbm, 226, rfl⟩
abbrev main_v169 : Ref sig .tc := ⟨.hbm, 227, rfl⟩
abbrev main_cst_52 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_cst_53 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_cst_54 : Ref sig .tc := ⟨.hbm, 238, rfl⟩
abbrev main_v178 : Ref sig .tc := ⟨.hbm, 239, rfl⟩
abbrev main_v179 : Ref sig .tc := ⟨.hbm, 240, rfl⟩
abbrev main_cst_55 : Ref sig .tc := ⟨.hbm, 241, rfl⟩
abbrev main_v180 : Ref sig .tc := ⟨.hbm, 242, rfl⟩
abbrev main_v181 : Ref sig .tc := ⟨.hbm, 243, rfl⟩
abbrev main_cst_56 : Ref sig .tc := ⟨.hbm, 244, rfl⟩
abbrev main_v182 : Ref sig .tc := ⟨.hbm, 245, rfl⟩
abbrev main_v183 : Ref sig .tc := ⟨.hbm, 246, rfl⟩
abbrev main_cst_57 : Ref sig .tc := ⟨.hbm, 247, rfl⟩
abbrev main_v184 : Ref sig .tc := ⟨.hbm, 248, rfl⟩
abbrev main_v185 : Ref sig .tc := ⟨.hbm, 249, rfl⟩
abbrev main_cst_58 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_cst_59 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_cst_60 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_cst_61 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_cst_62 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_cst_63 : Ref sig .tc := ⟨.hbm, 271, rfl⟩
abbrev main_v202 : Ref sig .tc := ⟨.hbm, 272, rfl⟩
abbrev main_v203 : Ref sig .tc := ⟨.hbm, 273, rfl⟩
abbrev main_cst_64 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_cst_65 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_cst_66 : Ref sig .tc := ⟨.hbm, 282, rfl⟩
abbrev main_v210 : Ref sig .tc := ⟨.hbm, 283, rfl⟩
abbrev main_v211 : Ref sig .tc := ⟨.hbm, 284, rfl⟩
abbrev main_cst_67 : Ref sig .tc := ⟨.hbm, 285, rfl⟩
abbrev main_v212 : Ref sig .tc := ⟨.hbm, 286, rfl⟩
abbrev main_v213 : Ref sig .tc := ⟨.hbm, 287, rfl⟩
abbrev main_cst_68 : Ref sig .tc := ⟨.hbm, 288, rfl⟩
abbrev main_v214 : Ref sig .tc := ⟨.hbm, 289, rfl⟩
abbrev main_v215 : Ref sig .tc := ⟨.hbm, 290, rfl⟩
abbrev main_cst_69 : Ref sig .tc := ⟨.hbm, 291, rfl⟩
abbrev main_v216 : Ref sig .tc := ⟨.hbm, 292, rfl⟩
abbrev main_v217 : Ref sig .tc := ⟨.hbm, 293, rfl⟩
abbrev main_cst_70 : Ref sig .tc := ⟨.hbm, 294, rfl⟩
abbrev main_v218 : Ref sig .tc := ⟨.hbm, 295, rfl⟩
abbrev main_v219 : Ref sig .tc := ⟨.hbm, 296, rfl⟩
abbrev main_cst_71 : Ref sig .tc := ⟨.hbm, 297, rfl⟩
abbrev main_v220 : Ref sig .tc := ⟨.hbm, 298, rfl⟩
abbrev main_v221 : Ref sig .tc := ⟨.hbm, 299, rfl⟩
abbrev main_v222 : Ref sig .tc := ⟨.hbm, 300, rfl⟩
abbrev main_v223 : Ref sig .tc := ⟨.hbm, 301, rfl⟩
abbrev main_cst_72 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_cst_73 : Ref sig .tc := ⟨.hbm, 306, rfl⟩
abbrev main_v227 : Ref sig .tc := ⟨.hbm, 307, rfl⟩
abbrev main_v228 : Ref sig .tc := ⟨.hbm, 308, rfl⟩
abbrev main_v229 : Ref sig .tc := ⟨.hbm, 309, rfl⟩
abbrev main_cst_74 : Ref sig .tc := ⟨.hbm, 310, rfl⟩
abbrev main_v230 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_cst_75 : Ref sig .tc := ⟨.hbm, 315, rfl⟩
abbrev main_call2_v0 : Ref sig .tc := ⟨.hbm, 316, rfl⟩
abbrev main_call2_v1 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_cst_76 : Ref sig .tc := ⟨.hbm, 321, rfl⟩
abbrev main_v237 : Ref sig .tc := ⟨.hbm, 322, rfl⟩
abbrev main_v238 : Ref sig .tc := ⟨.hbm, 323, rfl⟩
abbrev main_cst_77 : Ref sig .tc := ⟨.hbm, 324, rfl⟩
abbrev main_v239 : Ref sig .tc := ⟨.hbm, 325, rfl⟩
abbrev main_v240 : Ref sig .tc := ⟨.hbm, 326, rfl⟩
abbrev main_cst_78 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_cst_79 : Ref sig .tc := ⟨.hbm, 331, rfl⟩
abbrev main_v244 : Ref sig .tc := ⟨.hbm, 332, rfl⟩
abbrev main_v245 : Ref sig .tc := ⟨.hbm, 333, rfl⟩
abbrev main_v246 : Ref sig .tc := ⟨.hbm, 334, rfl⟩
abbrev main_cst_80 : Ref sig .tc := ⟨.hbm, 335, rfl⟩
abbrev main_v247 : Ref sig .tc := ⟨.hbm, 336, rfl⟩
abbrev main_v248 : Ref sig .tc := ⟨.hbm, 337, rfl⟩
abbrev main_cst_81 : Ref sig .tc := ⟨.hbm, 338, rfl⟩
abbrev main_v249 : Ref sig .tc := ⟨.hbm, 339, rfl⟩
abbrev main_v250 : Ref sig .tc := ⟨.hbm, 340, rfl⟩
abbrev main_cst_82 : Ref sig .tc := ⟨.hbm, 341, rfl⟩
abbrev main_v251 : Ref sig .tc := ⟨.hbm, 342, rfl⟩
abbrev main_v252 : Ref sig .tc := ⟨.hbm, 343, rfl⟩
abbrev main_v253 : Ref sig .tc := ⟨.hbm, 344, rfl⟩
abbrev main_v254 : Ref sig .tc := ⟨.hbm, 345, rfl⟩
abbrev main_v255 : Ref sig .tc := ⟨.hbm, 346, rfl⟩
abbrev main_v256 : Ref sig .tc := ⟨.hbm, 347, rfl⟩
abbrev main_v257 : Ref sig .tc := ⟨.hbm, 348, rfl⟩
abbrev main_v258 : Ref sig .tc := ⟨.hbm, 349, rfl⟩
abbrev main_v259 : Ref sig .tc := ⟨.hbm, 350, rfl⟩
abbrev main_v260 : Ref sig .tc := ⟨.hbm, 351, rfl⟩
abbrev main_v261 : Ref sig .tc := ⟨.hbm, 352, rfl⟩
abbrev main_v262 : Ref sig .tc := ⟨.hbm, 353, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  slices_S8192x1024x8_S8192x1024x1_0_0_0 : S8192x1024x8.Slices ![0, 0, 0] S8192x1024x1
  shapeCasts_S8192x1024x1_S8192x1024 : S8192x1024x1.ShapeCasts S8192x1024
  slices_S8192x1024x8_S8192x1024x1_0_0_1 : S8192x1024x8.Slices ![0, 0, 1] S8192x1024x1
  slices_S8192x1024x8_S8192x1024x1_0_0_2 : S8192x1024x8.Slices ![0, 0, 2] S8192x1024x1
  slices_S8192x1024x8_S8192x1024x1_0_0_3 : S8192x1024x8.Slices ![0, 0, 3] S8192x1024x1
  slices_S8192x1024x8_S8192x1024x1_0_0_4 : S8192x1024x8.Slices ![0, 0, 4] S8192x1024x1
  slices_S8192x1024x8_S8192x1024x1_0_0_5 : S8192x1024x8.Slices ![0, 0, 5] S8192x1024x1
  slices_S8192x1024x8_S8192x1024x1_0_0_6 : S8192x1024x8.Slices ![0, 0, 6] S8192x1024x1
  slices_S8192x1024x8_S8192x1024x1_0_0_7 : S8192x1024x8.Slices ![0, 0, 7] S8192x1024x1
  bcast_S8192x1024_S8192x1024x1_0_1 : S8192x1024.BroadcastsInDim S8192x1024x1 (![0, 1] : Fin 2 → Fin S8192x1024x1.rank)
  concatenates_S8192x1024x1_S8192x1024x1_S8192x1024x1_S8192x1024x1_S8192x1024x1_S8192x1024x1_S8192x1024x1_S8192x1024x1_S8192x1024x8_d2 : Shape.Concatenates [S8192x1024x1, S8192x1024x1, S8192x1024x1, S8192x1024x1, S8192x1024x1, S8192x1024x1, S8192x1024x1, S8192x1024x1] S8192x1024x8 2
  dot_S8192x1024_S1024x1024_S8192x1024_1_1_0_0_n_n_wf : DotDims.WF S8192x1024 S1024x1024 S8192x1024 [1] [1] [0] [0] [] []

variable [Facts₀]

def dot_S8192x1024_S1024x1024_S8192x1024_1_1_0_0_n_n : DotDims S8192x1024 S1024x1024 S8192x1024 where
  lhsContracting := [1]
  rhsContracting := [1]
  lhsNonContracting := [0]
  rhsNonContracting := [0]
  lhsBatch := []
  rhsBatch := []
  wf := dot_S8192x1024_S1024x1024_S8192x1024_1_1_0_0_n_n_wf

class Facts : Prop extends Facts₀ where

variable [Facts]
-- ==== Proof.Spec.lean ====
/-
  The specification: the right-hand side of the two-compartment (soma / dendrite) conductance neuron model,
  one function of the argument arrays, index by index, on the extended reals.

  For sample `b` and neuron `n` the state is `y[b, n, ·] = (Vs, Vd, n, h, s, c, q, Ca)`: the two membrane
  potentials, five gating variables and the calcium concentration. The current injected into the soma is
      I[b, n] = I_ext[b, n] / P  +  ∑ₖ syn[b, k] · (w[n, k] · mask[n, k]),
  the external current scaled by the soma's share `P` of the membrane plus the synaptic input gathered through the
  masked weight matrix. The result `[b, n, ·]` is the eight time derivatives
      (dVs, dVd, dn, dh, ds, dc, dq, dCa)
  — note the order: the gating variable `n` before `h` — each a rational expression in the state, `exp`, `min`
  and one comparison. Every float literal stays the word it was printed as (`lit`): both programs carry the
  same words, so no literal is ever evaluated, except the zero word in a negation spelt `0 − x`.

  No law of arithmetic beyond `0 − x = −x` (true of every extended real, the infinities included) is needed to
  join the two programs: they apply the same operations in the same order to the same elements, and differ only
  in layout (the kernel works channel-major on blocks of 128 samples) and in the spelling of negation.
-/
import Idealize.ShloMosaic.PureOps.Ideal
import Idealize.ShloMosaic.PureOps.Ideal.Laws
import Idealize.ShloMosaic.Lib.ValueIdx

noncomputable section

namespace Cert.Neuron

open Idealize.ShloMosaic Idealize.ShloMosaic.ValueIdx

/-- A float literal, by its f32 word, as the extended real it denotes. -/
abbrev lit (b : BitVec 32) : EReal := Ideal.ofBits .f32 b

/-- Negation spelt as a subtraction from the zero word. -/
def nneg (x : EReal) : EReal := lit 0x00000000#32 - x

/-- `0 − x = −x` on every extended real. -/
theorem nneg_eq_neg (x : EReal) : nneg x = -x := by
  unfold nneg lit
  rw [Ideal.ofBits_zero_f32, zero_sub]

/-! ## The rate functions of the soma potential `Vs` -/

/-- `α_m = −0.32·(Vs + 46.9) / (exp(−(Vs + 46.9)/4) − 1)`. -/
def alphaM (Vs : EReal) : EReal :=
  Ideal.div (lit 0xBEA3D70A#32 * (Vs + lit 0x423B999A#32))
    (Ideal.exp (Ideal.div (nneg (Vs + lit 0x423B999A#32)) (lit 0x40800000#32)) - lit 0x3F800000#32)

/-- `β_m = 0.28·(Vs + 19.9) / (exp((Vs + 19.9)/5) − 1)`. -/
def betaM (Vs : EReal) : EReal :=
  Ideal.div (lit 0x3E8F5C29#32 * (Vs + lit 0x419F3333#32))
    (Ideal.exp (Ideal.div (Vs + lit 0x419F3333#32) (lit 0x40A00000#32)) - lit 0x3F800000#32)

/-- The sodium activation at its steady state, `m_∞ = α_m / (α_m + β_m)`. -/
def mInf (Vs : EReal) : EReal := Ideal.div (alphaM Vs) (alphaM Vs + betaM Vs)

/-- `α_h = 0.128·exp((−43 − Vs)/18)`. -/
def alphaH (Vs : EReal) : EReal :=
  lit 0x3E03126F#32 * Ideal.exp (Ideal.div (lit 0xC22C0000#32 - Vs) (lit 0x41900000#32))

/-- `β_h = 4 / (1 + exp(−(Vs + 20)/5))`. -/
def betaH (Vs : EReal) : EReal :=
  Ideal.div (lit 0x40800000#32)
    (lit 0x3F800000#32 + Ideal.exp (Ideal.div (nneg (Vs + lit 0x41A00000#32)) (lit 0x40A00000#32)))

/-- `α_n = −0.016·(Vs + 24.9) / (exp(−(Vs + 24.9)/5) − 1)`. -/
def alphaN (Vs : EReal) : EReal :=
  Ideal.div (lit 0xBC83126F#32 * (Vs + lit 0x41C73333#32))
    (Ideal.exp (Ideal.div (nneg (Vs + lit 0x41C73333#32)) (lit 0x40A00000#32)) - lit 0x3F800000#32)

/-- `β_n = 0.25·exp(−(Vs + 40)/40)`. -/
def betaN (Vs : EReal) : EReal :=
  lit 0x3E800000#32 * Ideal.exp (Ideal.div (nneg (Vs + lit 0x42200000#32)) (lit 0x42200000#32))

/-! ## The rate functions of the dendrite potential `Vd` -/

/-- `α_s = 1.6 / (1 + exp(−0.072·(Vd − 5)))`. -/
def alphaS (Vd : EReal) : EReal :=
  Ideal.div (lit 0x3FCCCCCD#32)
    (lit 0x3F800000#32 + Ideal.exp (lit 0xBD9374BC#32 * (Vd - lit 0x40A00000#32)))

/-- `β_s = 0.02·(Vd + 8.9) / (exp((Vd + 8.9)/5) − 1)`. -/
def betaS (Vd : EReal) : EReal :=
  Ideal.div (lit 0x3CA3D70A#32 * (Vd + lit 0x410E6666#32))
    (Ideal.exp (Ideal.div (Vd + lit 0x410E6666#32) (lit 0x40A00000#32)) - lit 0x3F800000#32)

/-- `2·exp(−(Vd + 53.5)/27)`: the upper branch of `α_c`, and `α_c + β_c` on the lower one. -/
def twoExp (Vd : EReal) : EReal :=
  lit 0x40000000#32 * Ideal.exp (Ideal.div (nneg (Vd + lit 0x42560000#32)) (lit 0x41D80000#32))

/-- `α_c = 0.0527·exp((Vd + 50)/11 − (Vd + 53.5)/27)` where `Vd ≤ −10`, else `2·exp(−(Vd + 53.5)/27)`. -/
def alphaC (Vd : EReal) : EReal :=
  Scalar.select (Ideal.cmp .ole Vd (lit 0xC1200000#32))
    (lit 0x3D57DBF5#32 * Ideal.exp (Ideal.div (Vd + lit 0x42480000#32) (lit 0x41300000#32)
      - Ideal.div (Vd + lit 0x42560000#32) (lit 0x41D80000#32)))
    (twoExp Vd)

/-- `β_c = 2·exp(−(Vd + 53.5)/27) − α_c` where `Vd ≤ −10`, else `0`. -/
def betaC (Vd : EReal) : EReal :=
  Scalar.select (Ideal.cmp .ole Vd (lit 0xC1200000#32)) (twoExp Vd - alphaC Vd) (lit 0x00000000#32)

/-! ## The currents -/

/-- Soma leak, `g_L·(Vs − E_L)`. -/
def iLeakS (Vs : EReal) : EReal := lit 0x39D1B717#32 * (Vs - lit 0xC2780000#32)
/-- Sodium, `g_Na·(m_∞²·h)·(Vs − E_Na)`. -/
def iNa (Vs h : EReal) : EReal := lit 0x3E8A3D71#32 * (mInf Vs * mInf Vs * h) * (Vs - lit 0x42700000#32)
/-- Delayed rectifier, `g_DR·n·(Vs − E_K)`. -/
def iDR (Vs n : EReal) : EReal := lit 0x3E75C28F#32 * n * (Vs - lit 0xC2960000#32)
/-- Coupling from dendrite to soma, `g_c·(Vd − Vs)`. -/
def iDS (Vs Vd : EReal) : EReal := lit 0x3ECCCCCD#32 * (Vd - Vs)
/-- Dendrite leak, `g_L'·(Vd − E_L)`. -/
def iLeakD (Vd : EReal) : EReal := lit 0x3727C5AC#32 * (Vd - lit 0xC2780000#32)
/-- Calcium, `g_Ca·s²·(Vd − E_Ca)`. -/
def iCa (Vd s : EReal) : EReal := lit 0x3C03126F#32 * (s * s) * (Vd - lit 0x42A00000#32)
/-- After-hyperpolarisation, `g_AHP·q·(Vd − E_K)`. -/
def iAHP (Vd q : EReal) : EReal := lit 0x3BA3D70A#32 * q * (Vd - lit 0xC2960000#32)
/-- Calcium-dependent potassium, `g_C·c·min(Ca/250, 1)·(Vd − E_K)`. -/
def iC (Vd c Ca : EReal) : EReal :=
  lit 0x3C1374BC#32 * c * min (Ideal.div Ca (lit 0x437A0000#32)) (lit 0x3F800000#32) * (Vd - lit 0xC2960000#32)

/-! ## The eight derivatives -/

/-- `dVs = ½·(−I_leak − I_Na − I_DR + I_ds/P + I)`. -/
def dVs (Vs Vd n h I : EReal) : EReal :=
  lit 0x3F000000#32 * (nneg (iLeakS Vs) - iNa Vs h - iDR Vs n + Ideal.div (iDS Vs Vd) (lit 0x3DCCCCCD#32) + I)
/-- `dVd = ½·(−I_leak' − I_Ca − I_AHP − I_C + (−I_ds)/(1 − P))`. -/
def dVd (Vs Vd s c q Ca : EReal) : EReal :=
  lit 0x3F000000#32 * (nneg (iLeakD Vd) - iCa Vd s - iAHP Vd q - iC Vd c Ca
    + Ideal.div (nneg (iDS Vs Vd)) (lit 0x3F666666#32))
/-- A gating variable `x` relaxes as `α·(1 − x) − β·x`. -/
def gate (α β x : EReal) : EReal := α * (lit 0x3F800000#32 - x) - β * x
/-- `dq = min(2·10⁻⁵·Ca, 0.01)·(1 − q) − 0.001·q`. -/
def dq (q Ca : EReal) : EReal :=
  min (lit 0x37A7C5AC#32 * Ca) (lit 0x3C23D70A#32) * (lit 0x3F800000#32 - q) - lit 0x3A83126F#32 * q
/-- `dCa = −0.004·I_Ca − 1·Ca/8`. -/
def dCa (Vd s Ca : EReal) : EReal :=
  lit 0xBB83126F#32 * iCa Vd s - Ideal.div (lit 0x3F800000#32 * Ca) (lit 0x41000000#32)

/-- The derivative in channel `ch` of the state `st = (Vs, Vd, n, h, s, c, q, Ca)` under the soma current `I`. -/
def deriv (ch : Fin 8) (st : Fin 8 → EReal) (I : EReal) : EReal :=
  match ch with
  | ⟨0, _⟩ => dVs (st 0) (st 1) (st 2) (st 3) I
  | ⟨1, _⟩ => dVd (st 0) (st 1) (st 4) (st 5) (st 6) (st 7)
  | ⟨2, _⟩ => gate (alphaN (st 0)) (betaN (st 0)) (st 2)
  | ⟨3, _⟩ => gate (alphaH (st 0)) (betaH (st 0)) (st 3)
  | ⟨4, _⟩ => gate (alphaS (st 1)) (betaS (st 1)) (st 4)
  | ⟨5, _⟩ => gate (alphaC (st 1)) (betaC (st 1)) (st 5)
  | ⟨6, _⟩ => dq (st 6) (st 7)
  | ⟨7, _⟩ => dCa (st 1) (st 4) (st 7)

/-! ## The arrays -/

abbrev SY : Shape := ⟨3, ![8192, 1024, 8]⟩
abbrev SB : Shape := ⟨2, ![8192, 1024]⟩
abbrev SW : Shape := ⟨2, ![1024, 1024]⟩

/-- The soma current of sample `b`, neuron `n`: `I_ext/P + ∑ₖ syn[b,k]·(w[n,k]·mask[n,k])`. -/
def current (Iext syn : SB.Idx → EReal) (w : SW.Idx → EReal) (mask : SW.Idx → BitVec 32) (b : Fin 8192) (n : Fin 1024) : EReal :=
  Ideal.div (Iext (ix2 b n)) (lit 0x3DCCCCCD#32)
    + ∑ k : Fin 1024, syn (ix2 b k) * (w (ix2 n k) * FloatOps.sitofp (F := Ideal) .f32 (mask (ix2 n k)))

/-- THE RESULT, index by index: entry `(b, n, ch)` is derivative `ch` of the state `y[b, n, ·]` under `I[b, n]`. -/
def G (y : SY.Idx → EReal) (Iext syn : SB.Idx → EReal) (w : SW.Idx → EReal) (mask : SW.Idx → BitVec 32) : SY.Idx → EReal :=
  fun j => deriv (j 2) (fun c => y (ix3 (j 0) (j 1) c)) (current Iext syn w mask (j 0) (j 1))

end Cert.Neuron

end
-- ==== Proof.KernelPoint.lean ====
/-
  The kernel's arithmetic at one element. Each of the eight derivative slabs the body computes is a pointwise
  expression of the state slabs `Vs, Vd, n, h, s, c, q, Ca` (and, for the soma, of the current slab): read at an
  element `j` of the 128 × 1024 block it is the specification's scalar function of the slabs' elements at `j`.
  Nothing is rearranged — the body applies the specification's operations in the specification's order, negation
  spelt `0 − x` — so each equation holds by unfolding.
-/
import proofs.«177184_j66941360275495_2_alg».proof.Proof.Spec
import proofs.«177184_j66941360275495_2_alg».proof.Proof.Gen.KernelIdeal.Skeleton

noncomputable section

namespace Cert.KernelIdeal.Point

open Idealize.ShloMosaic Cert.KernelIdeal Cert.KernelIdeal.Gen Cert.Neuron

variable (Vs Vd n h s c q Ca I : FVec Ideal S128x1024 .f32) (j : S128x1024.Idx)

/-- Channel 0: the soma potential's derivative. -/
theorem dVs_at :
    k0_pay33 I Vs Vd (k0_pay24 Vs) (k0_pay25 Vs h (k0_pay12 Vs (k0_pay11 (F := Ideal)))) (k0_pay26 n) j
      = dVs (Vs j) (Vd j) (n j) (h j) (I j) := rfl

/-- Channel 1: the dendrite potential's derivative. -/
theorem dVd_at :
    k0_pay34 (k0_pay28 Vd) (k0_pay29 Vd s) (k0_pay30 Vd q) (k0_pay31 Vd c Ca) (k0_pay32 Vs Vd)
        (Scalar.ofBits .f32 0x00000000#32) j
      = dVd (Vs j) (Vd j) (s j) (c j) (q j) (Ca j) := rfl

/-- Channel 2: the potassium activation `n`. -/
theorem dn_at :
    k0_pay36 n (k0_pay16 (k0_pay15 Vs)) (k0_pay17 Vs) j = gate (alphaN (Vs j)) (betaN (Vs j)) (n j) := rfl

/-- Channel 3: the sodium inactivation `h`. -/
theorem dh_at :
    k0_pay35 h (k0_pay13 Vs) (k0_pay14 Vs) j = gate (alphaH (Vs j)) (betaH (Vs j)) (h j) := rfl

/-- Channel 4: the calcium activation `s`. -/
theorem ds_at :
    k0_pay37 s (k0_pay18 Vd) (k0_pay19 Vd) j = gate (alphaS (Vd j)) (betaS (Vd j)) (s j) := rfl

/-- Channel 5: the calcium-dependent potassium activation `c`. -/
theorem dc_at :
    k0_pay38 c (k0_pay22 Vd (k0_pay20 Vd) (k0_pay21 Vd)) (k0_pay23 Vd (k0_pay20 Vd) (k0_pay21 Vd)) j
      = gate (alphaC (Vd j)) (betaC (Vd j)) (c j) := rfl

/-- Channel 6: the after-hyperpolarisation activation `q`. -/
theorem dq_at : k0_pay39 q Ca j = dq (q j) (Ca j) := rfl

/-- Channel 7: the calcium concentration. -/
theorem dCa_at : k0_pay40 Ca (k0_pay29 Vd s) j = dCa (Vd j) (s j) (Ca j) := rfl

end Cert.KernelIdeal.Point

end
-- ==== Proof.KernelCurrent.lean ====
/-
  The soma current the kernel's body computes on a block: at row `r`, column `n` of the 128 × 1024 block it is
  `I_ext[r, n] / P` plus the matrix product `∑ₖ syn[r, k] · wT[k, n]` into a zero accumulator — on the extended
  reals a change of float format is the identity, so the narrowing of the product's operands leaves them as they are.
-/
import proofs.«177184_j66941360275495_2_alg».proof.Proof.Spec
import proofs.«177184_j66941360275495_2_alg».proof.Proof.Gen.KernelIdeal.Skeleton
import Idealize.ShloMosaic.Lib.Pipeline.Value

noncomputable section

namespace Cert.KernelIdeal.Point

open Idealize.ShloMosaic Idealize.ShloMosaic.ValueIdx Cert.KernelIdeal Cert.KernelIdeal.Gen Cert.Neuron

/-- The block's soma current at `(r, n)`. -/
theorem current_at (syn : Vec Ideal S128x1024 .f32) (wT : Vec Ideal S1024x1024 .bf16) (Iext : Vec Ideal S128x1024 .f32)
    (r : Fin 128) (n : Fin 1024) :
    k0_pay2 syn wT Iext (ix2 r n)
      = Ideal.div (Iext (ix2 r n)) (lit 0x3DCCCCCD#32) + ∑ k : Fin 1024, syn (ix2 r k) * wT (ix2 k n) := by
  unfold k0_pay2
  rw [shapeCast_self]
  show Ideal.div (Iext (ix2 r n)) (lit 0x3DCCCCCD#32)
      + FloatOps.matmul (F := Ideal) dot_S128x1024_S1024x1024_S128x1024_1_0_0_1_n_n none
          (truncf (F := Ideal) .bf16 syn bitsLt_bf16_f32) wT (constant (F := Ideal) S128x1024 .f32 0x00000000#32) (ix2 r n) = _
  rw [Ideal.matmul_constant_zero_apply,
    ← Equiv.sum_comp (contrEquiv1 dot_S128x1024_S1024x1024_S128x1024_1_0_0_1_n_n 1024 rfl rfl).symm]
  refine congrArg _ (Finset.sum_congr rfl fun k _ => ?_)
  have hk := contrEquiv1_symm_val dot_S128x1024_S1024x1024_S128x1024_1_0_0_1_n_n 1024 rfl rfl k
  have el : dot_S128x1024_S1024x1024_S128x1024_1_0_0_1_n_n.lhsIdx (ix2 r n)
      ((contrEquiv1 dot_S128x1024_S1024x1024_S128x1024_1_0_0_1_n_n 1024 rfl rfl).symm k) = ix2 r k :=
    funext fun a => Fin.ext (by
      match a with
      | ⟨0, _⟩ => rfl
      | ⟨1, _⟩ => exact (dot_S128x1024_S1024x1024_S128x1024_1_0_0_1_n_n.lhsIdx_val_of_single rfl _ _).trans hk)
  have er : dot_S128x1024_S1024x1024_S128x1024_1_0_0_1_n_n.rhsIdx (ix2 r n)
      ((contrEquiv1 dot_S128x1024_S1024x1024_S128x1024_1_0_0_1_n_n 1024 rfl rfl).symm k) = ix2 k n :=
    funext fun a => Fin.ext (by
      match a with
      | ⟨0, _⟩ => exact (dot_S128x1024_S1024x1024_S128x1024_1_0_0_1_n_n.rhsIdx_val_of_single rfl _ _).trans hk
      | ⟨1, _⟩ => rfl)
  rw [el, er]
  rfl

end Cert.KernelIdeal.Point

end
-- ==== Proof.KernelBlock.lean ====
/-
  What the kernel's body leaves in the output block, element by element. The block is channel-major, 8 × 128 × 1024:
  the body reads the eight state slabs `y[c, ·, ·]` of the input block, computes the eight derivative slabs pointwise
  (the soma's also from the block's current), and stacks them along the leading axis. So element `(ch, r, n)` of the
  block is derivative `ch` of the state `(y[0, r, n], …, y[7, r, n])` under the current at `(r, n)`.
-/
import proofs.«177184_j66941360275495_2_alg».proof.Proof.Spec
import proofs.«177184_j66941360275495_2_alg».proof.Proof.KernelPoint
import proofs.«177184_j66941360275495_2_alg».proof.Proof.KernelCurrent
import proofs.«177184_j66941360275495_2_alg».proof.Proof.Gen.KernelIdeal.Frame
import Idealize.ShloMosaic.Lib.Pipeline.Value

noncomputable section

namespace Cert.KernelIdeal.Point

open Idealize.ShloMosaic Idealize.ShloMosaic.ValueIdx Cert.KernelIdeal Cert.KernelIdeal.Gen Cert.Neuron

theorem zeros2 : (![0, 0] : Fin 2 → Nat) = fun _ => 0 := funext fun a => by fin_cases a <;> rfl
theorem zeros3 : (![0, 0, 0] : Fin 3 → Nat) = fun _ => 0 := funext fun a => by fin_cases a <;> rfl

/-- Dropping the unit axis of the slab loaded at leading offset `k` reads `y[k, r, n]`. -/
theorem slab_at (y : Vec Ideal S8x128x1024 .f32) (k : Nat) (inb) (r : Fin 128) (n : Fin 1024) (hk : k < 8) :
    shapeCast S128x1024 (View.ld y (Rect.unit (s := S8x128x1024) ![k, 0, 0] S1x128x1024.size inb))
        shapeCasts_S1x128x1024_S128x1024 (ix2 r n)
      = y (ix3 ⟨k, hk⟩ r n) := by
  refine (shapeCast_dropUnit_apply ![128, 1024] _ _ (ix2 r n)).trans ?_
  refine congrArg y (funext fun a => Fin.ext ?_)
  match a with
  | ⟨0, _⟩ => show k + 1 * 0 = k; omega
  | ⟨1, _⟩ => show 0 + 1 * r.val = r.val; omega
  | ⟨2, _⟩ => show 0 + 1 * n.val = n.val; omega

section Stack
variable (a0 a1 a2 a3 a4 a5 a6 a7 : FVec Ideal S128x1024 .f32) (r : Fin 128) (n : Fin 1024)

/-- The body stacks its eight result slabs along the leading axis, each as a 1 × 128 × 1024 piece, in the order
    `a0, a1, a3, a2, a4, a5, a6, a7` of its arguments: element `(k, r, n)` of the stack is piece `k` at `(r, n)`. -/
local macro "stack_piece" k:num v:ident : tactic => `(tactic| (
  unfold k0_pay1
  refine (concatenate_apply_piece (t := S8x128x1024) (0 : Fin 3) _ _ _ $k ?_ S1x128x1024 (shapeCast S1x128x1024 $v shapeCasts_S128x1024_S1x128x1024) ?_ rfl $k ?_ (ix3 0 r n) ?_ ?_).trans ?_
  · exact (by decide : $k < 8)
  · rfl
  · rfl
  · intro b hb
    match b with
    | ⟨0, _⟩ => exact absurd rfl hb
    | ⟨1, _⟩ => rfl
    | ⟨2, _⟩ => rfl
  · rfl
  · refine (shapeCast_addUnit_apply ![128, 1024] _ _ _).trans (congrArg $v (funext fun a => ?_))
    match a with
    | ⟨0, _⟩ => rfl
    | ⟨1, _⟩ => rfl))

theorem stack_at0 : k0_pay1 a0 a1 a2 a3 a4 a5 a6 a7 (ix3 ⟨0, by decide⟩ r n) = a0 (ix2 r n) := by stack_piece 0 a0
theorem stack_at1 : k0_pay1 a0 a1 a2 a3 a4 a5 a6 a7 (ix3 ⟨1, by decide⟩ r n) = a1 (ix2 r n) := by stack_piece 1 a1
theorem stack_at2 : k0_pay1 a0 a1 a2 a3 a4 a5 a6 a7 (ix3 ⟨2, by decide⟩ r n) = a3 (ix2 r n) := by stack_piece 2 a3
theorem stack_at3 : k0_pay1 a0 a1 a2 a3 a4 a5 a6 a7 (ix3 ⟨3, by decide⟩ r n) = a2 (ix2 r n) := by stack_piece 3 a2
theorem stack_at4 : k0_pay1 a0 a1 a2 a3 a4 a5 a6 a7 (ix3 ⟨4, by decide⟩ r n) = a4 (ix2 r n) := by stack_piece 4 a4
theorem stack_at5 : k0_pay1 a0 a1 a2 a3 a4 a5 a6 a7 (ix3 ⟨5, by decide⟩ r n) = a5 (ix2 r n) := by stack_piece 5 a5
theorem stack_at6 : k0_pay1 a0 a1 a2 a3 a4 a5 a6 a7 (ix3 ⟨6, by decide⟩ r n) = a6 (ix2 r n) := by stack_piece 6 a6
theorem stack_at7 : k0_pay1 a0 a1 a2 a3 a4 a5 a6 a7 (ix3 ⟨7, by decide⟩ r n) = a7 (ix2 r n) := by stack_piece 7 a7

end Stack

section Block
variable (y : Vec Ideal S8x128x1024 .f32) (Iext syn : Vec Ideal S128x1024 .f32) (wT : Vec Ideal S1024x1024 .bf16)
  (r : Fin 128) (n : Fin 1024)

/-- The eight state slabs the body loads, at `(r, n)`. -/
theorem Vs_at : k0_pay3 (View.ld y r0_2) (ix2 r n) = y (ix3 0 r n) := slab_at y 0 _ r n (by decide)
theorem Vd_at : k0_pay4 (View.ld y r0_3) (ix2 r n) = y (ix3 1 r n) := slab_at y 1 _ r n (by decide)
theorem n_at : k0_pay5 (View.ld y r0_4) (ix2 r n) = y (ix3 2 r n) := slab_at y 2 _ r n (by decide)
theorem h_at : k0_pay6 (View.ld y r0_5) (ix2 r n) = y (ix3 3 r n) := slab_at y 3 _ r n (by decide)
theorem s_at : k0_pay7 (View.ld y r0_6) (ix2 r n) = y (ix3 4 r n) := slab_at y 4 _ r n (by decide)
theorem c_at : k0_pay8 (View.ld y r0_7) (ix2 r n) = y (ix3 5 r n) := slab_at y 5 _ r n (by decide)
theorem q_at : k0_pay9 (View.ld y r0_8) (ix2 r n) = y (ix3 6 r n) := slab_at y 6 _ r n (by decide)
theorem Ca_at : k0_pay10 (View.ld y r0_9) (ix2 r n) = y (ix3 7 r n) := slab_at y 7 _ r n (by decide)

/-- ELEMENT `(ch, r, n)` OF THE OUTPUT BLOCK after the body: derivative `ch` of the state `y[·, r, n]` under the block's
    current at `(r, n)`. -/
theorem block_at (ch : Fin 8) :
    out0_4 y Iext syn wT (ix3 ch r n)
      = deriv ch (fun c => y (ix3 c r n))
          (Ideal.div (Iext (ix2 r n)) (lit 0x3DCCCCCD#32) + ∑ k : Fin 1024, syn (ix2 r k) * wT (ix2 k n)) := by
  unfold out0_4
  rw [View.canon_unit_zero zeros3]
  simp only [View.ld_unit_zero (S := S128x1024) zeros2, View.ld_unit_zero (S := S1024x1024) zeros2]
  obtain ⟨c, hc⟩ := ch
  interval_cases c
  · rw [stack_at0, dVs_at, Vs_at, Vd_at, n_at, h_at, current_at]; rfl
  · rw [stack_at1, dVd_at, Vs_at, Vd_at, s_at, c_at, q_at, Ca_at]; rfl
  · rw [stack_at2, dn_at, Vs_at, n_at]; rfl
  · rw [stack_at3, dh_at, Vs_at, h_at]; rfl
  · rw [stack_at4, ds_at, Vd_at, s_at]; rfl
  · rw [stack_at5, dc_at, Vd_at, c_at]; rfl
  · rw [stack_at6, dq_at, q_at, Ca_at]; rfl
  · rw [stack_at7, dCa_at, Vd_at, s_at, Ca_at]; rfl

end Block

end Cert.KernelIdeal.Point

end
-- ==== Proof.KernelValue.lean ====
/-
  The kernel's result array, whole. The region works on the channel-major copy `yT[c, b, n] = y[b, n, c]` of the state
  and on `wT[k, n] = w[n, k] · mask[n, k]`, both made by host operations before it. Grid point `t` handles samples
  `128·t … 128·t + 127`: its block of the channel-major result holds, at `(ch, r, n)`, derivative `ch` of the state of
  sample `128·t + r`, neuron `n`. The 64 blocks tile the array, so after the region the channel-major result is the
  specification transposed; the host operation after the region transposes it back.
-/
import proofs.«177184_j66941360275495_2_alg».proof.Proof.Spec
import proofs.«177184_j66941360275495_2_alg».proof.Proof.KernelBlock
import proofs.«177184_j66941360275495_2_alg».proof.Proof.Gen.KernelIdeal.Frame
import Idealize.ShloMosaic.Lib.Pipeline.Value
import Idealize.ShloMosaic.Lib.StableHlo.Run

noncomputable section

namespace Cert.KernelIdeal.Whole

open Idealize.ShloMosaic Idealize.ShloMosaic.TcCoe Idealize.ShloMosaic.ValueIdx Idealize.SL.Sem
open Cert.KernelIdeal Cert.KernelIdeal.Gen Cert.KernelIdeal.Point Cert.Neuron
open Idealize.ShloMosaic.Pipeline (Dat)

variable (m : (ℓ : Loc nD τ sig) → Buf (Elt Ideal) ℓ) (ρ : Dev nD → PrngReg)

/-- The specification in the kernel's channel-major layout: entry `(ch, b, n)` is the specification's `(b, n, ch)`. -/
def GT (y : SY.Idx → EReal) (Iext syn : SB.Idx → EReal) (w : SW.Idx → EReal) (mask : SW.Idx → BitVec 32) :
    S8x8192x1024.Idx → EReal :=
  fun i => G y Iext syn w mask (ix3 (i 1) (i 2) (i 0))

/-! ## What the host operations before the region leave -/

/-- The channel-major state the region reads: the transpose of the state argument. -/
theorem yT_eq (c : Dev nD) : (V m c main_v4 : S8x8192x1024.Idx → EReal)
    = transpose S8x8192x1024 [2, 0, 1] (m ((c : Thread nD τ).loc main_arg0)) transposes_S8192x1024x8_S8x8192x1024_2_0_1 := by
  show StableHlo.after hostOps0 (fun b => m (c, b)) (Proc.devRef .tc main_v4) = _
  after_results

/-- The weight matrix the region reads: the masked weights, transposed (and narrowed, the identity here). -/
theorem wT_eq (c : Dev nD) : (V m c main_v3 : S1024x1024.Idx → EReal)
    = truncf (F := Ideal) .bf16 (transpose S1024x1024 [1, 0]
        (mulf (F := Ideal) (m ((c : Thread nD τ).loc main_arg3)) (sitofp (F := Ideal) .f32 (m ((c : Thread nD τ).loc main_arg4))))
        transposes_S1024x1024_S1024x1024_1_0) bitsLt_bf16_f32 := by
  show StableHlo.after hostOps0 (fun b => m (c, b)) (Proc.devRef .tc main_v3) = _
  after_results

/-- The masked weight `w[n, k] · mask[n, k]` of core `c`'s arguments. -/
def maskedW (w : SW.Idx → EReal) (mask : SW.Idx → BitVec 32) (n k : Fin 1024) : EReal :=
  w (ix2 n k) * FloatOps.sitofp (F := Ideal) .f32 (mask (ix2 n k))
abbrev wm (c : Dev nD) (n k : Fin 1024) : EReal :=
  maskedW (m ((c : Thread nD τ).loc main_arg3)) (m ((c : Thread nD τ).loc main_arg4)) n k

/-- `yT[ch, b, n] = y[b, n, ch]`. -/
theorem yT_at (c : Dev nD) (ch : Fin 8) (b : Fin 8192) (n : Fin 1024) :
    V m c main_v4 (ix3 ch b n) = m ((c : Thread nD τ).loc main_arg0) (ix3 b n ch) := by
  rw [yT_eq]
  exact transpose_apply _ _ _ (ix3 ch b n) (ix3 b n ch) (fun a => by
    match a with
    | ⟨0, _⟩ => rfl
    | ⟨1, _⟩ => rfl
    | ⟨2, _⟩ => rfl)

/-- `wT[k, n] = w[n, k] · mask[n, k]`. -/
theorem wT_at (c : Dev nD) (k n : Fin 1024) :
    V m c main_v3 (ix2 k n) = wm m c n k := by
  rw [wT_eq]
  refine (truncf_apply (φ := .f32) (ψ := .bf16) _ bitsLt_bf16_f32 (ix2 k n)).trans ?_
  exact transpose_apply _ _ _ (ix2 k n) (ix2 n k) (fun a => by
    match a with
    | ⟨0, _⟩ => rfl
    | ⟨1, _⟩ => rfl)

/-! ## The blocks -/

/-- Where each window's block sits at grid point `t`: the state and result windows at `(0, t, 0)`, the two
    current windows at `(t, 0)`, the weight window at `(0, 0)` — decided over the grid. -/
theorem index_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

/-- Sample `128·t + r`: row `r` of grid point `t`'s block. -/
def row (t : Fin cfg0.N) (r : Fin 128) : Fin 8192 :=
  ⟨t.val * 128 + r.val, by have := t.isLt; have h : cfg0.N = 64 := N_0; have := r.isLt; omega⟩

/-- The state block at point `t`: `(c', r, n) ↦ y[128·t + r, n, c']`. -/
theorem state_blk (c : Dev nD) (t : Fin cfg0.N) (c' : Fin 8) (r : Fin 128) (n : Fin 1024) :
    (iblk m c 0 t : Vec Ideal S8x128x1024 .f32) (ix3 c' r n) = m ((c : Thread nD τ).loc main_arg0) (ix3 (row t r) n c') := by
  obtain ⟨e0, e1, e2, -⟩ := index_facts t
  refine Eq.trans ?_ (yT_at m c c' (row t r) n)
  unfold iblk
  rw [View.read_apply]
  show V m c main_v4 _ = V m c main_v4 _
  congr 1
  funext a
  apply Fin.ext
  match a with
  | ⟨0, _⟩ => show win0_0.index t (0 : Fin 3) * 8 + 1 * c'.val = c'.val; rw [e0]; omega
  | ⟨1, _⟩ => show win0_0.index t (1 : Fin 3) * 128 + 1 * r.val = t.val * 128 + r.val; rw [e1]; omega
  | ⟨2, _⟩ => show win0_0.index t (2 : Fin 3) * 1024 + 1 * n.val = n.val; rw [e2]; omega

/-- The external-current block at point `t`: `(r, n) ↦ I_ext[128·t + r, n]`. -/
theorem iext_blk (c : Dev nD) (t : Fin cfg0.N) (r : Fin 128) (n : Fin 1024) :
    (iblk m c 1 t : Vec Ideal S128x1024 .f32) (ix2 r n) = m ((c : Thread nD τ).loc main_arg1) (ix2 (row t r) n) := by
  obtain ⟨-, -, -, e0, e1, -⟩ := index_facts t
  refine Eq.trans ?_ (congrFun (V_main_arg1 m c) (ix2 (row t r) n))
  unfold iblk
  rw [View.read_apply]
  show V m c main_arg1 _ = V m c main_arg1 _
  congr 1
  funext a
  apply Fin.ext
  match a with
  | ⟨0, _⟩ => show win0_1.index t (0 : Fin 2) * 128 + 1 * r.val = t.val * 128 + r.val; rw [e0]; omega
  | ⟨1, _⟩ => show win0_1.index t (1 : Fin 2) * 1024 + 1 * n.val = n.val; rw [e1]; omega

/-- The synaptic-input block at point `t`: `(r, k) ↦ syn[128·t + r, k]`. -/
theorem syn_blk (c : Dev nD) (t : Fin cfg0.N) (r : Fin 128) (k : Fin 1024) :
    (iblk m c 2 t : Vec Ideal S128x1024 .f32) (ix2 r k) = m ((c : Thread nD τ).loc main_arg2) (ix2 (row t r) k) := by
  obtain ⟨-, -, -, -, -, e0, e1, -⟩ := index_facts t
  refine Eq.trans ?_ (congrFun (V_main_arg2 m c) (ix2 (row t r) k))
  unfold iblk
  rw [View.read_apply]
  show V m c main_arg2 _ = V m c main_arg2 _
  congr 1
  funext a
  apply Fin.ext
  match a with
  | ⟨0, _⟩ => show win0_2.index t (0 : Fin 2) * 128 + 1 * r.val = t.val * 128 + r.val; rw [e0]; omega
  | ⟨1, _⟩ => show win0_2.index t (1 : Fin 2) * 1024 + 1 * k.val = k.val; rw [e1]; omega

/-- The weight block, the whole matrix at every point: `(k, n) ↦ w[n, k] · mask[n, k]`. -/
theorem w_blk (c : Dev nD) (t : Fin cfg0.N) (k n : Fin 1024) :
    (iblk m c 3 t : Vec Ideal S1024x1024 .bf16) (ix2 k n) = wm m c n k := by
  obtain ⟨-, -, -, -, -, -, -, e0, e1, -⟩ := index_facts t
  refine Eq.trans ?_ (wT_at m c k n)
  unfold iblk
  rw [View.read_apply]
  show V m c main_v3 _ = V m c main_v3 _
  congr 1
  funext a
  apply Fin.ext
  match a with
  | ⟨0, _⟩ => show win0_3.index t (0 : Fin 2) * 1024 + 1 * k.val = k.val; rw [e0]; omega
  | ⟨1, _⟩ => show win0_3.index t (1 : Fin 2) * 1024 + 1 * n.val = n.val; rw [e1]; omega

/-- Element `(ch, r, n)` of point `t`'s result block sits at `(ch, 128·t + r, n)` of the channel-major result. -/
theorem out_emb (t : Fin cfg0.N) (ch : Fin 8) (r : Fin 128) (n : Fin 1024) :
    ((cfg0.win 4).blk t).view.emb (ix3 ch r n) = (ix3 ch (row t r) n : S8x8192x1024.Idx) := by
  obtain ⟨-, -, -, -, -, -, -, -, -, e0, e1, e2⟩ := index_facts t
  funext a
  apply Fin.ext
  match a with
  | ⟨0, _⟩ => show win0_4.index t (0 : Fin 3) * 8 + 1 * ch.val = ch.val; rw [e0]; omega
  | ⟨1, _⟩ => show win0_4.index t (1 : Fin 3) * 128 + 1 * r.val = t.val * 128 + r.val; rw [e1]; omega
  | ⟨2, _⟩ => show win0_4.index t (2 : Fin 3) * 1024 + 1 * n.val = n.val; rw [e2]; omega

/-- The specification, and its channel-major form, of core `c`'s argument arrays as launched. -/
abbrev Gm (c : Dev nD) : S8192x1024x8.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))
abbrev GTm (c : Dev nD) : S8x8192x1024.Idx → EReal :=
  GT (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT `t` WRITES BACK is block `t` of the channel-major specification of the argument arrays. -/
theorem flushed_eq (c : Dev nD) (t : Fin cfg0.N) :
    (dats m 0 c).flushed 4 t = ((cfg0.win 4).blk t).view.read (Elt Ideal) (GTm m c) := by
  show (cfg0.win 4).cut (grid0.coords t) ((dats m 0 c).after 4 t) = _
  rw [after0_4]
  funext y
  obtain ⟨ch, r, n, rfl⟩ : ∃ (ch : Fin 8) (r : Fin 128) (n : Fin 1024), y = ix3 ch r n := ⟨y 0, y 1, y 2, eq_ix3 y⟩
  show out0_4 (iblk m c 0 t) (iblk m c 1 t) (iblk m c 2 t) (iblk m c 3 t) (ix3 ch r n)
    = GTm m c (((cfg0.win 4).blk t).view.emb (ix3 ch r n))
  refine (block_at (iblk m c 0 t) (iblk m c 1 t) (iblk m c 2 t) (iblk m c 3 t) r n ch).trans ?_
  rw [out_emb]
  simp only [state_blk, iext_blk, syn_blk, w_blk]
  rfl

/-- An index of the channel-major result is in point `t`'s block iff each coordinate is in the block's range. -/
theorem mem_blk (t : Fin cfg0.N) (i : S8x8192x1024.Idx) :
    i ∈ ((cfg0.win 4).blk t).view.set ↔ ∀ a : Fin 3, win0_4.index t a * S8x128x1024.size a ≤ (i a).val
      ∧ (i a).val < win0_4.index t a * S8x128x1024.size a + S8x128x1024.size a := by
  show i ∈ ((View.whole main_v5).slice (win0_4.rect t)).set ↔ _
  rw [View.set_slice_whole, Rect.mem_set_unit]
  exact Iff.rfl

/-- The 64 blocks tile the channel-major result: sample `b` is in the block of point `b / 128`. -/
theorem covered (i : S8x8192x1024.Idx) :
    ∃ t : Fin cfg0.N, (cfg0.win 4).flush t = true ∧ i ∈ ((cfg0.win 4).blk t).view.set := by
  have h0 : (i 0).val < 8 := (i 0).isLt
  have h1 : (i 1).val < 8192 := (i 1).isLt
  have h2 : (i 2).val < 1024 := (i 2).isLt
  have hN : cfg0.N = 64 := N_0
  let t : Fin cfg0.N := ⟨(i 1).val / 128, by omega⟩
  obtain ⟨-, -, -, -, -, -, -, -, -, e0, e1, e2⟩ := index_facts t
  refine ⟨t, flush0_4 t, ?_⟩
  rw [mem_blk]
  intro a
  match a with
  | ⟨0, _⟩ => show win0_4.index t (0 : Fin 3) * 8 ≤ (i 0).val ∧ (i 0).val < win0_4.index t (0 : Fin 3) * 8 + 8; rw [e0]; omega
  | ⟨1, _⟩ =>
    show win0_4.index t (1 : Fin 3) * 128 ≤ (i 1).val ∧ (i 1).val < win0_4.index t (1 : Fin 3) * 128 + 128
    rw [e1]; show (i 1).val / 128 * 128 ≤ (i 1).val ∧ (i 1).val < (i 1).val / 128 * 128 + 128; omega
  | ⟨2, _⟩ => show win0_4.index t (2 : Fin 3) * 1024 ≤ (i 2).val ∧ (i 2).val < win0_4.index t (2 : Fin 3) * 1024 + 1024; rw [e2]; omega

/-- THE CHANNEL-MAJOR RESULT after the region is the channel-major specification of the argument arrays. -/
theorem final (c : Dev nD) : (dats m 0 c).arrAt 4 cfg0.N = GTm m c :=
  (dats m 0 c).arrAt_eq_of_cover 4 (GTm m c) (fun t _ => flushed_eq m c t) covered

/-! ## The host operation after the region, and the run -/

/-- THE RESULT: the channel-major result transposed back is the specification. -/
theorem result_eq (c : Dev nD) :
    Pipeline.afterTail₀ cfgs (dats m) 0 (V0 m) [hostOps1] c main_v6
      = Gm m c := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = GTm m c := (Pipeline.withArrays_arr spec0 launch0.win.arr_inj c _ _ 4).trans (final m c)
  rw [e]
  funext j
  obtain ⟨b, n, ch, rfl⟩ : ∃ (b : Fin 8192) (n : Fin 1024) (ch : Fin 8), j = ix3 b n ch := ⟨j 0, j 1, j 2, eq_ix3 j⟩
  exact transpose_apply _ _ _ (ix3 b n ch) (ix3 ch b n) (fun a => by
    match a with
    | ⟨0, _⟩ => rfl
    | ⟨1, _⟩ => rfl
    | ⟨2, _⟩ => rfl)

/-- THE KERNEL'S RUN: every weakly fair execution terminates with the result array at the specification of the
    argument arrays, and the arguments unchanged. -/
theorem run : θ_run defs (onTc (τ := τ) (main (F := Ideal))) ⟨m, fun _ => 0, ρ⟩ fun r => ∀ c : Dev nD,
      r.2.mem ((c.tc : Thread nD τ).loc main_v6) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Whole

end
-- ==== Proof.RefIsSpec.lean ====
/-
  The reference computes the specification. Its program slices the eight state channels out of `y`, forms the soma
  current `I_ext / P + syn · (w ∘ mask)ᵀ` with one matrix product, evaluates the eight derivatives pointwise over the
  8192 × 1024 (sample, neuron) grid, and joins them along a new last axis. Read at `(b, n, ch)` that is derivative `ch`
  of the state `y[b, n, ·]` under `I[b, n]`: the specification. The reference spells negation as negation; the
  specification's `0 − x` is the same extended real.
-/
import proofs.«177184_j66941360275495_2_alg».proof.Proof.Spec
import proofs.«177184_j66941360275495_2_alg».proof.Proof.RefRead
import Idealize.ShloMosaic.Lib.Pipeline.Value

noncomputable section

namespace Cert.ReferenceIdeal.RefValue

open Idealize.ShloMosaic Idealize.ShloMosaic.ValueIdx Cert.ReferenceIdeal Cert.ReferenceIdeal.ReadP Cert.Neuron

variable (x0 : (⟨S8192x1024x8, .f32⟩ : BufTy).Contents (Elt Ideal)) (x1 x2 : (⟨S8192x1024, .f32⟩ : BufTy).Contents (Elt Ideal))
  (x3 : (⟨S1024x1024, .f32⟩ : BufTy).Contents (Elt Ideal)) (x4 : (⟨S1024x1024, .i32⟩ : BufTy).Contents (Elt Ideal))

/-! ## The eight derivatives, pointwise: each stage of the program is the specification's function of the state stages -/

section Pointwise
variable (i : S8192x1024.Idx)

theorem dVs_ref : val_main_v98 (F := Ideal) x0 x1 x2 x3 x4 i
    = dVs (val_main_v7 (F := Ideal) x0 i) (val_main_v9 (F := Ideal) x0 i) (val_main_v11 (F := Ideal) x0 i)
        (val_main_v13 (F := Ideal) x0 i) (val_main_v5 (F := Ideal) x1 x2 x3 x4 i) := by
  simp only [dVs, iLeakS, iNa, mInf, alphaM, betaM, iDR, iDS, nneg_eq_neg]; rfl

theorem dVd_ref : val_main_v107 (F := Ideal) x0 i
    = dVd (val_main_v7 (F := Ideal) x0 i) (val_main_v9 (F := Ideal) x0 i) (val_main_v15 (F := Ideal) x0 i)
        (val_main_v17 (F := Ideal) x0 i) (val_main_v19 (F := Ideal) x0 i) (val_main_v21 (F := Ideal) x0 i) := by
  simp only [dVd, iLeakD, iCa, iAHP, iC, iDS, nneg_eq_neg]; rfl

theorem dn_ref : val_main_v153 (F := Ideal) x0 i
    = gate (alphaN (val_main_v7 (F := Ideal) x0 i)) (betaN (val_main_v7 (F := Ideal) x0 i)) (val_main_v11 (F := Ideal) x0 i) := by
  simp only [gate, alphaN, betaN, nneg_eq_neg]; rfl

theorem dh_ref : val_main_v129 (F := Ideal) x0 i
    = gate (alphaH (val_main_v7 (F := Ideal) x0 i)) (betaH (val_main_v7 (F := Ideal) x0 i)) (val_main_v13 (F := Ideal) x0 i) := by
  simp only [gate, alphaH, betaH, nneg_eq_neg]; rfl

theorem ds_ref : val_main_v177 (F := Ideal) x0 i
    = gate (alphaS (val_main_v9 (F := Ideal) x0 i)) (betaS (val_main_v9 (F := Ideal) x0 i)) (val_main_v15 (F := Ideal) x0 i) := rfl

theorem dc_ref : val_main_v236 (F := Ideal) x0 i
    = gate (alphaC (val_main_v9 (F := Ideal) x0 i)) (betaC (val_main_v9 (F := Ideal) x0 i)) (val_main_v17 (F := Ideal) x0 i) := by
  simp only [gate, alphaC, betaC, twoExp, nneg_eq_neg]; rfl

theorem dq_ref : val_main_v246 (F := Ideal) x0 i = dq (val_main_v19 (F := Ideal) x0 i) (val_main_v21 (F := Ideal) x0 i) := rfl

theorem dCa_ref : val_main_v253 (F := Ideal) x0 i
    = dCa (val_main_v9 (F := Ideal) x0 i) (val_main_v15 (F := Ideal) x0 i) (val_main_v21 (F := Ideal) x0 i) := rfl

end Pointwise

/-! ## The state channels and the current at `(b, n)` -/

section At
variable (b : Fin 8192) (n : Fin 1024)

/-- Channel `k` of the state: the slice `y[:, :, k:k+1]` with its unit axis dropped reads `y[b, n, k]`. -/
theorem Vs_ref : val_main_v7 (F := Ideal) x0 (ix2 b n) = x0 (ix3 b n 0) := by
  rw [val_main_v7_apply, val_main_v6_apply]
  refine congrArg x0 (funext fun a => Fin.ext ?_)
  match a with
  | ⟨0, _⟩ => show (b.val * 1024 + n.val) / 1024 = b.val; have := n.isLt; omega
  | ⟨1, _⟩ => show (b.val * 1024 + n.val) / 1 % 1024 = n.val; have := n.isLt; omega
  | ⟨2, _⟩ => rfl
theorem Vd_ref : val_main_v9 (F := Ideal) x0 (ix2 b n) = x0 (ix3 b n 1) := by
  rw [val_main_v9_apply, val_main_v8_apply]
  refine congrArg x0 (funext fun a => Fin.ext ?_)
  match a with
  | ⟨0, _⟩ => show (b.val * 1024 + n.val) / 1024 = b.val; have := n.isLt; omega
  | ⟨1, _⟩ => show (b.val * 1024 + n.val) / 1 % 1024 = n.val; have := n.isLt; omega
  | ⟨2, _⟩ => rfl
theorem n_ref : val_main_v11 (F := Ideal) x0 (ix2 b n) = x0 (ix3 b n 2) := by
  rw [val_main_v11_apply, val_main_v10_apply]
  refine congrArg x0 (funext fun a => Fin.ext ?_)
  match a with
  | ⟨0, _⟩ => show (b.val * 1024 + n.val) / 1024 = b.val; have := n.isLt; omega
  | ⟨1, _⟩ => show (b.val * 1024 + n.val) / 1 % 1024 = n.val; have := n.isLt; omega
  | ⟨2, _⟩ => rfl
theorem h_ref : val_main_v13 (F := Ideal) x0 (ix2 b n) = x0 (ix3 b n 3) := by
  rw [val_main_v13_apply, val_main_v12_apply]
  refine congrArg x0 (funext fun a => Fin.ext ?_)
  match a with
  | ⟨0, _⟩ => show (b.val * 1024 + n.val) / 1024 = b.val; have := n.isLt; omega
  | ⟨1, _⟩ => show (b.val * 1024 + n.val) / 1 % 1024 = n.val; have := n.isLt; omega
  | ⟨2, _⟩ => rfl
theorem s_ref : val_main_v15 (F := Ideal) x0 (ix2 b n) = x0 (ix3 b n 4) := by
  rw [val_main_v15_apply, val_main_v14_apply]
  refine congrArg x0 (funext fun a => Fin.ext ?_)
  match a with
  | ⟨0, _⟩ => show (b.val * 1024 + n.val) / 1024 = b.val; have := n.isLt; omega
  | ⟨1, _⟩ => show (b.val * 1024 + n.val) / 1 % 1024 = n.val; have := n.isLt; omega
  | ⟨2, _⟩ => rfl
theorem c_ref : val_main_v17 (F := Ideal) x0 (ix2 b n) = x0 (ix3 b n 5) := by
  rw [val_main_v17_apply, val_main_v16_apply]
  refine congrArg x0 (funext fun a => Fin.ext ?_)
  match a with
  | ⟨0, _⟩ => show (b.val * 1024 + n.val) / 1024 = b.val; have := n.isLt; omega
  | ⟨1, _⟩ => show (b.val * 1024 + n.val) / 1 % 1024 = n.val; have := n.isLt; omega
  | ⟨2, _⟩ => rfl
theorem q_ref : val_main_v19 (F := Ideal) x0 (ix2 b n) = x0 (ix3 b n 6) := by
  rw [val_main_v19_apply, val_main_v18_apply]
  refine congrArg x0 (funext fun a => Fin.ext ?_)
  match a with
  | ⟨0, _⟩ => show (b.val * 1024 + n.val) / 1024 = b.val; have := n.isLt; omega
  | ⟨1, _⟩ => show (b.val * 1024 + n.val) / 1 % 1024 = n.val; have := n.isLt; omega
  | ⟨2, _⟩ => rfl
theorem Ca_ref : val_main_v21 (F := Ideal) x0 (ix2 b n) = x0 (ix3 b n 7) := by
  rw [val_main_v21_apply, val_main_v20_apply]
  refine congrArg x0 (funext fun a => Fin.ext ?_)
  match a with
  | ⟨0, _⟩ => show (b.val * 1024 + n.val) / 1024 = b.val; have := n.isLt; omega
  | ⟨1, _⟩ => show (b.val * 1024 + n.val) / 1 % 1024 = n.val; have := n.isLt; omega
  | ⟨2, _⟩ => rfl

theorem lidx_eq (k : Fin 1024) : lidx_main_v2 (ix2 b n) k = ix2 b k :=
  funext fun a => Fin.ext (by match a with | ⟨0, _⟩ => rfl | ⟨1, _⟩ => rfl)
theorem ridx_eq (k : Fin 1024) : ridx_main_v2 (ix2 b n) k = ix2 n k :=
  funext fun a => Fin.ext (by match a with | ⟨0, _⟩ => rfl | ⟨1, _⟩ => rfl)

/-- The soma current: `I_ext[b, n] / P` plus the contraction of `syn[b, ·]` with the masked weights `(w ∘ mask)[n, ·]`. -/
theorem current_ref : val_main_v5 (F := Ideal) x1 x2 x3 x4 (ix2 b n) = current x1 x2 x3 x4 b n := by
  show Ideal.div (x1 (ix2 b n)) (lit 0x3DCCCCCD#32) + val_main_v2 (F := Ideal) x2 x3 x4 (ix2 b n) = _
  rw [val_main_v2_apply]
  simp only [lidx_eq, ridx_eq]
  rfl

end At

/-! ## The joined result -/

/-- THE REFERENCE'S RESULT is the specification of its arguments. -/
theorem ref_eq_G : val_main_v262 (F := Ideal) x0 x1 x2 x3 x4 = G x0 x1 x2 x3 x4 := by
  funext j
  obtain ⟨b, n, ch, rfl⟩ : ∃ (b : Fin 8192) (n : Fin 1024) (ch : Fin 8), j = ix3 b n ch := ⟨j 0, j 1, j 2, eq_ix3 j⟩
  unfold val_main_v262
  obtain ⟨c, hc⟩ := ch
  interval_cases c
  · -- channel 0
    refine (concatenate_apply_piece (t := S8192x1024x8) (2 : Fin 3) _ _ _ 0 ?_ S8192x1024x1
      (val_main_v254 (F := Ideal) x0 x1 x2 x3 x4) ?_ rfl 0 ?_ (ix3 b n 0) ?_ ?_).trans ?_
    · exact (by decide : 0 < 8)
    · rfl
    · rfl
    · intro a ha
      match a with
      | ⟨0, _⟩ => rfl
      | ⟨1, _⟩ => rfl
      | ⟨2, _⟩ => exact absurd rfl ha
    · rfl
    · have hi : idx_main_v254 (ix3 b n (0 : Fin 1)) = ix2 b n :=
        funext fun a => Fin.ext (by match a with | ⟨0, _⟩ => rfl | ⟨1, _⟩ => rfl)
      rw [val_main_v254_apply, hi, dVs_ref, Vs_ref, Vd_ref, n_ref, h_ref, current_ref]
      rfl
  · -- channel 1
    refine (concatenate_apply_piece (t := S8192x1024x8) (2 : Fin 3) _ _ _ 1 ?_ S8192x1024x1
      (val_main_v255 (F := Ideal) x0) ?_ rfl 1 ?_ (ix3 b n 0) ?_ ?_).trans ?_
    · exact (by decide : 1 < 8)
    · rfl
    · rfl
    · intro a ha
      match a with
      | ⟨0, _⟩ => rfl
      | ⟨1, _⟩ => rfl
      | ⟨2, _⟩ => exact absurd rfl ha
    · rfl
    · have hi : idx_main_v255 (ix3 b n (0 : Fin 1)) = ix2 b n :=
        funext fun a => Fin.ext (by match a with | ⟨0, _⟩ => rfl | ⟨1, _⟩ => rfl)
      rw [val_main_v255_apply, hi, dVd_ref, Vs_ref, Vd_ref, s_ref, c_ref, q_ref, Ca_ref]
      rfl
  · -- channel 2
    refine (concatenate_apply_piece (t := S8192x1024x8) (2 : Fin 3) _ _ _ 2 ?_ S8192x1024x1
      (val_main_v256 (F := Ideal) x0) ?_ rfl 2 ?_ (ix3 b n 0) ?_ ?_).trans ?_
    · exact (by decide : 2 < 8)
    · rfl
    · rfl
    · intro a ha
      match a with
      | ⟨0, _⟩ => rfl
      | ⟨1, _⟩ => rfl
      | ⟨2, _⟩ => exact absurd rfl ha
    · rfl
    · have hi : idx_main_v256 (ix3 b n (0 : Fin 1)) = ix2 b n :=
        funext fun a => Fin.ext (by match a with | ⟨0, _⟩ => rfl | ⟨1, _⟩ => rfl)
      rw [val_main_v256_apply, hi, dn_ref, Vs_ref, n_ref]
      rfl
  · -- channel 3
    refine (concatenate_apply_piece (t := S8192x1024x8) (2 : Fin 3) _ _ _ 3 ?_ S8192x1024x1
      (val_main_v257 (F := Ideal) x0) ?_ rfl 3 ?_ (ix3 b n 0) ?_ ?_).trans ?_
    · exact (by decide : 3 < 8)
    · rfl
    · rfl
    · intro a ha
      match a with
      | ⟨0, _⟩ => rfl
      | ⟨1, _⟩ => rfl
      | ⟨2, _⟩ => exact absurd rfl ha
    · rfl
    · have hi : idx_main_v257 (ix3 b n (0 : Fin 1)) = ix2 b n :=
        funext fun a => Fin.ext (by match a with | ⟨0, _⟩ => rfl | ⟨1, _⟩ => rfl)
      rw [val_main_v257_apply, hi, dh_ref, Vs_ref, h_ref]
      rfl
  · -- channel 4
    refine (concatenate_apply_piece (t := S8192x1024x8) (2 : Fin 3) _ _ _ 4 ?_ S8192x1024x1
      (val_main_v258 (F := Ideal) x0) ?_ rfl 4 ?_ (ix3 b n 0) ?_ ?_).trans ?_
    · exact (by decide : 4 < 8)
    · rfl
    · rfl
    · intro a ha
      match a with
      | ⟨0, _⟩ => rfl
      | ⟨1, _⟩ => rfl
      | ⟨2, _⟩ => exact absurd rfl ha
    · rfl
    · have hi : idx_main_v258 (ix3 b n (0 : Fin 1)) = ix2 b n :=
        funext fun a => Fin.ext (by match a with | ⟨0, _⟩ => rfl | ⟨1, _⟩ => rfl)
      rw [val_main_v258_apply, hi, ds_ref, Vd_ref, s_ref]
      rfl
  · -- channel 5
    refine (concatenate_apply_piece (t := S8192x1024x8) (2 : Fin 3) _ _ _ 5 ?_ S8192x1024x1
      (val_main_v259 (F := Ideal) x0) ?_ rfl 5 ?_ (ix3 b n 0) ?_ ?_).trans ?_
    · exact (by decide : 5 < 8)
    · rfl
    · rfl
    · intro a ha
      match a with
      | ⟨0, _⟩ => rfl
      | ⟨1, _⟩ => rfl
      | ⟨2, _⟩ => exact absurd rfl ha
    · rfl
    · have hi : idx_main_v259 (ix3 b n (0 : Fin 1)) = ix2 b n :=
        funext fun a => Fin.ext (by match a with | ⟨0, _⟩ => rfl | ⟨1, _⟩ => rfl)
      rw [val_main_v259_apply, hi, dc_ref, Vd_ref, c_ref]
      rfl
  · -- channel 6
    refine (concatenate_apply_piece (t := S8192x1024x8) (2 : Fin 3) _ _ _ 6 ?_ S8192x1024x1
      (val_main_v260 (F := Ideal) x0) ?_ rfl 6 ?_ (ix3 b n 0) ?_ ?_).trans ?_
    · exact (by decide : 6 < 8)
    · rfl
    · rfl
    · intro a ha
      match a with
      | ⟨0, _⟩ => rfl
      | ⟨1, _⟩ => rfl
      | ⟨2, _⟩ => exact absurd rfl ha
    · rfl
    · have hi : idx_main_v260 (ix3 b n (0 : Fin 1)) = ix2 b n :=
        funext fun a => Fin.ext (by match a with | ⟨0, _⟩ => rfl | ⟨1, _⟩ => rfl)
      rw [val_main_v260_apply, hi, dq_ref, q_ref, Ca_ref]
      rfl
  · -- channel 7
    refine (concatenate_apply_piece (t := S8192x1024x8) (2 : Fin 3) _ _ _ 7 ?_ S8192x1024x1
      (val_main_v261 (F := Ideal) x0) ?_ rfl 7 ?_ (ix3 b n 0) ?_ ?_).trans ?_
    · exact (by decide : 7 < 8)
    · rfl
    · rfl
    · intro a ha
      match a with
      | ⟨0, _⟩ => rfl
      | ⟨1, _⟩ => rfl
      | ⟨2, _⟩ => exact absurd rfl ha
    · rfl
    · have hi : idx_main_v261 (ix3 b n (0 : Fin 1)) = ix2 b n :=
        funext fun a => Fin.ext (by match a with | ⟨0, _⟩ => rfl | ⟨1, _⟩ => rfl)
      rw [val_main_v261_apply, hi, dCa_ref, Vd_ref, s_ref, Ca_ref]
      rfl

end Cert.ReferenceIdeal.RefValue

end
-- ==== Proof.lean ====
/-
  The certificate: the fused kernel and the reference compute the same eight derivatives of the two-compartment
  neuron model, element by element, on the extended reals.

  Proof/Spec.lean states the result as one function `G` of the argument arrays (the state `y`, the external and
  synaptic inputs, the weights and their mask). The kernel side (Proof/KernelPoint.lean, KernelCurrent.lean,
  KernelBlock.lean, KernelValue.lean) reads the kernel's run: each of the 64 grid points writes one 8 × 128 × 1024 block
  of the channel-major result, every element of it the specification's derivative of that sample's state; the blocks
  tile the array and the closing transpose gives `G`. The reference side (Proof/RefIsSpec.lean) reads the reference's
  run element by element: `G` again. No arithmetic law joins the two beyond `0 − x = −x`, so the precondition is not
  opened; the idealization rewrote nothing, so `preserves` is trivial; the frames are the programs' runs with the
  result dropped.
-/
import proofs.«177184_j66941360275495_2_alg».proof.Defs
import proofs.«177184_j66941360275495_2_alg».proof.Proof.Gen.Kernel
import proofs.«177184_j66941360275495_2_alg».proof.Proof.Gen.Kernel.Frame
import proofs.«177184_j66941360275495_2_alg».proof.Proof.Gen.KernelIdeal
import proofs.«177184_j66941360275495_2_alg».proof.Proof.Gen.KernelIdeal.Frame
import proofs.«177184_j66941360275495_2_alg».proof.Proof.Gen.ReferenceIdeal
import proofs.«177184_j66941360275495_2_alg».proof.Proof.Gen.Pre_finite_inputs
import proofs.«177184_j66941360275495_2_alg».proof.Proof.KernelValue
import proofs.«177184_j66941360275495_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.RunP.run (F := Ideal) m ρ)

/-- Both programs end with the specification of the (agreeing) argument arrays in their result. -/
theorem algebraic : Cert.algebraic_KernelIdeal_ReferenceIdeal := by
  intro m ρ m' ρ' _ hagree
  refine ⟨fun c => Cert.KernelIdeal.Whole.Gm m c, Cert.KernelIdeal.Whole.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v262_eq, Cert.ReferenceIdeal.RefValue.ref_eq_G,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
